-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128 .f32) (main_arg9 : FVec F S128x16 .f32) (main_arg10 : FVec F S16 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x16 .f32 := Host.absf main_arg9
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128x16 .f32) (main_arg10 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x16 .f32) (main_arg10 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S1x128 : Shape := ⟨2, ![1, 128]⟩
abbrev S1600000x128 : Shape := ⟨2, ![1600000, 128]⟩
abbrev S10000x1 : Shape := ⟨2, ![10000, 1]⟩
abbrev S100000x16 : Shape := ⟨2, ![100000, 16]⟩

abbrev nBuf : Space → Nat
  | .hbm => 87
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S1600000x1, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S_, .i32⟩
  | .hbm, ⟨80, _⟩ => ⟨S_, .f32⟩
  | .hbm, ⟨81, _⟩ => ⟨S128x128, .f32⟩
  | .hbm, ⟨82, _⟩ => ⟨S_, .i32⟩
  | .hbm, ⟨83, _⟩ => ⟨S_, .f32⟩
  | .hbm, ⟨84, _⟩ => ⟨S128, .f32⟩
  | .hbm, ⟨85, _⟩ => ⟨S100000x128, .f32⟩
  | .hbm, ⟨86, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x1, .f32⟩
  | .local _ .vmem, ⟨12, _⟩ => ⟨S10000x1, .f32⟩
  | .local _ .vmem, ⟨13, _⟩ => ⟨S128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x1, .f32⟩
  | .local _ .vmem, ⟨22, _⟩ => ⟨S10000x1, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S10000x128, .f32⟩
  | .local _ .vmem, ⟨27, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_call0_v0 : Ref sig .tc := ⟨.hbm, 80, rfl⟩
abbrev main_v56 : Ref sig .tc := ⟨.hbm, 81, rfl⟩
abbrev main_c_11 : Ref sig .tc := ⟨.hbm, 82, rfl⟩
abbrev main_call1_v0 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  pads_S128x16_S128x128_000_01120 : S128x16.Pads (![0, 0] : Fin 2 → Nat) ![0, 112] ![0, 0] S128x128
  h_S_ : 0 < S_.numel
  pads_S16_S128_01120 : S16.Pads (![0] : Fin 1 → Nat) ![112] ![0] S128
  shapeCasts_S128x128_S128x128 : S128x128.ShapeCasts S128x128
  shapeCasts_S128_S128 : S128.ShapeCasts S128
  slices_S100000x128_S100000x16_0_0 : S100000x128.Slices ![0, 0] S100000x16
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S100000, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x1, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S1600000x1, .f32⟩
  | .hbm, ⟨89, _⟩ => ⟨S1600000x128, .f32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S100000x128, .f32⟩
  | .hbm, ⟨104, _⟩ => ⟨S100000x128, .f32⟩
  | .hbm, ⟨105, _⟩ => ⟨S100000x16, .f32⟩
  | .hbm, ⟨106, _⟩ => ⟨S1x16, .f32⟩
  | .hbm, ⟨107, _⟩ => ⟨S100000x16, .f32⟩
  | .hbm, ⟨108, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_v54 : Ref sig .tc := ⟨.hbm, 78, rfl⟩
abbrev main_c_7 : Ref sig .tc := ⟨.hbm, 79, rfl⟩
abbrev main_v55 : Ref sig .tc := ⟨.hbm, 80, rfl⟩
abbrev main_v56 : Ref sig .tc := ⟨.hbm, 81, rfl⟩
abbrev main_c_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_9 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call2_cst : Ref sig .tc := ⟨.hbm, 102, rfl⟩
abbrev main_call2_v0 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x16_S100000x16_1_0_0_1_n_n_wf : DotDims.WF S100000x128 S128x16 S100000x16 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The idealized kernel's run with its result named.

  @main is ten segments: stretches of host operations around three launches. The launch theorem for such a
  program reads, at the end, every unscoped buffer of each core against the fold of the segments over the
  launch memory. The frame keeps from that reading only the eleven argument arrays; here the result array is
  kept as well: it holds what the fold leaves at the last host operation's buffer.
-/
import proofs.«149400_j3478923510362_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the fold's value
    at its buffer, and the argument arrays end as launched. -/
theorem run : θ_run defs (onTc (τ := τ) (main (F := F))) ⟨m, fun _ => 0, ρ⟩ (fun r => ∀ c : Dev nD,
      r.2.mem ((c.tc : Thread nD τ).loc main_v59) = W10 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v59 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Named

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.Net.lean ====
/-
  A two-layer graph convolution network, as functions of whole arrays on the extended reals.

  With `M` nodes, features of width 128 and `C` classes:
  * `hidden x wf bf`     = max (x · wf + bf) 0, the input layer, row by row;
  * `stageA x wf bf w1`  = hidden · w1, the first convolution's weight product;
  * `combine agg hw sq b` = max (agg + hw · sq(row) + b) 0: the aggregated messages plus the self-loop term
    (the node's own row scaled by its squared inverse-root degree `sq`) plus the bias, rectified;
  * `stageB` = combine · w, the next weight product; `stageC` = combine · wo + bo, the classifier.
  `net` chains them, the aggregation over the edges being ONE function `AGG` of the array of rows it is given:
  both programs apply the same gather, scaling and scatter-add, and nothing here looks inside it.

  Every layer acts on each row separately (`…_of_rows`): a block of rows put through a layer is that block of the
  whole array put through it. That is what lets a launch that handles 10000 rows at a time be read as the layer
  on all rows. Only equalities of sums of the same products in the same order are used; no entry need be finite.
-/
import Idealize.ShloMosaic.PureOps.Ideal.Laws
import Idealize.ShloMosaic.Lib.ValueIdx
import proofs.«149400_j3478923510362_2_alg».proof.Proof.LibRowsTimes

noncomputable section

namespace Cert.Gcn

open Idealize.ShloMosaic Idealize.ShloMosaic.ValueIdx Cert.Dense

abbrev Mat (a b : Nat) := (⟨2, ![a, b]⟩ : Shape).Idx → EReal
abbrev Row (a : Nat) := (⟨1, ![a]⟩ : Shape).Idx → EReal

variable {M R K C C' : Nat}

/-- The input layer: `max (x · wf + bf) 0`. -/
def hidden (x : Mat M K) (wf : Mat K K) (bf : Row K) : Mat M K :=
  relu fun i => rowsTimes x wf i + bf (ix1 (i 1 : Fin K))

/-- The input layer followed by the first convolution's weight product. -/
def stageA (x : Mat M K) (wf : Mat K K) (bf : Row K) (w1 : Mat K K) : Mat M K :=
  rowsTimes (hidden x wf bf) w1

/-- Aggregated messages plus self-loop term plus bias, rectified. -/
def combine (agg hw : Mat M K) (sq : Row M) (b : Row K) : Mat M K :=
  relu fun i => agg i + hw i * sq (ix1 (i 0 : Fin M)) + b (ix1 (i 1 : Fin K))

/-- The combination followed by the next weight product. -/
def stageB (agg hw : Mat M K) (sq : Row M) (b : Row K) (w : Mat K K) : Mat M K :=
  rowsTimes (combine agg hw sq b) w

/-- The combination followed by the classifier: weight product plus bias. -/
def stageC (agg hw : Mat M K) (sq : Row M) (b : Row K) (wo : Mat K C) (bo : Row C) : Mat M C :=
  fun i => rowsTimes (combine agg hw sq b) wo i + bo (ix1 (i 1 : Fin C))

/-- The whole network, the edge aggregation a parameter. -/
def net (AGG : Mat M K → Mat M K) (sq : Row M) (x : Mat M K) (wf : Mat K K) (bf : Row K) (w1 : Mat K K) (b1 : Row K)
    (w2 : Mat K K) (b2 : Row K) (wo : Mat K C) (bo : Row C) : Mat M C :=
  stageC (AGG (stageB (AGG (stageA x wf bf w1)) (stageA x wf bf w1) sq b1 w2))
    (stageB (AGG (stageA x wf bf w1)) (stageA x wf bf w1) sq b1 w2) sq b2 wo bo

theorem hidden_of_rows (x : Mat M K) (x' : Mat R K) (wf : Mat K K) (bf : Row K) (p : Fin R) (r : Fin M)
    (hx : ∀ k : Fin K, x' (ix2 p k) = x (ix2 r k)) (k : Fin K) :
    hidden x' wf bf (ix2 p k) = hidden x wf bf (ix2 r k) := by
  unfold hidden relu
  exact congrArg (fun s => max (s + bf (ix1 k)) _)
    (rowsTimes_of_rows x wf x' wf (ix2 p k) (ix2 r k) hx fun _ => rfl)

/-- Row `p` of a block put through the first stage is row `r` of the whole array put through it, when the
    block's row `p` is the array's row `r`. -/
theorem stageA_of_rows (x : Mat M K) (x' : Mat R K) (wf : Mat K K) (bf : Row K) (w1 : Mat K K) (p : Fin R) (r : Fin M)
    (hx : ∀ k : Fin K, x' (ix2 p k) = x (ix2 r k)) (q : Fin K) :
    stageA x' wf bf w1 (ix2 p q) = stageA x wf bf w1 (ix2 r q) :=
  rowsTimes_of_rows _ w1 _ w1 (ix2 p q) (ix2 r q) (hidden_of_rows x x' wf bf p r hx) fun _ => rfl

theorem combine_of_rows (agg hw : Mat M K) (sq : Row M) (agg' hw' : Mat R K) (s : EReal) (b : Row K) (p : Fin R) (r : Fin M)
    (ha : ∀ k : Fin K, agg' (ix2 p k) = agg (ix2 r k)) (hh : ∀ k : Fin K, hw' (ix2 p k) = hw (ix2 r k))
    (hs : s = sq (ix1 r)) (k : Fin K) :
    max (agg' (ix2 p k) + hw' (ix2 p k) * s + b (ix1 k)) (Ideal.ofBits .f32 0x00000000#32)
      = combine agg hw sq b (ix2 r k) := by
  unfold combine relu
  rw [ha k, hh k, hs]
  rfl

/-- A one-column array read as the vector of its rows' entries. -/
def colOf (sn : Mat M 1) : Row M := fun i => sn (ix2 (i 0 : Fin M) (0 : Fin 1))

/-- The classifier's column j' with weights and bias `wo'`, `bo'` is its column j with `wo`, `bo` when those
    columns hold the same entries (a weight array widened by extra columns leaves the first ones as they were). -/
theorem stageC_of_cols (agg hw : Mat M K) (sq : Row M) (b : Row K) (wo : Mat K C) (bo : Row C) (wo' : Mat K C') (bo' : Row C')
    (r : Fin M) (j : Fin C) (j' : Fin C') (hw' : ∀ k : Fin K, wo' (ix2 k j') = wo (ix2 k j)) (hb : bo' (ix1 j') = bo (ix1 j)) :
    stageC agg hw sq b wo' bo' (ix2 r j') = stageC agg hw sq b wo bo (ix2 r j) := by
  unfold stageC
  exact congrArg₂ (· + ·) (rowsTimes_of_rows _ wo _ wo' (ix2 r j') (ix2 r j) (fun _ => rfl) hw') hb

end Cert.Gcn

end
-- ==== Proof.Edges.lean ====
/-
  What both programs do along the edges, as functions of the edge list and the edge weights.

  The edge list holds a source row and a destination row of node numbers. From them:
  * `dinv`  — one over the square root of each node's degree: the edge weights scatter-added onto their
    destination nodes, plus 1 for the self-loop;
  * `nrm`   — each edge's weight scaled by `dinv` at its source and at its destination (node numbers read
    cyclically: a negative number is shifted up by the number of nodes before it is used);
  * `sq`    — `dinv` squared, the weight of a node's self-loop;
  * `agg hw` — the messages: the source node's row of `hw` for each edge, scaled by the edge's `nrm`,
    scatter-added onto the destination nodes from a zero array.
  The two programs spell these chains with the same operations in the same order, so the chains are carried as
  these four names and never opened: which entries a gather or a scatter touches depends on the edge list.
-/
import proofs.«149400_j3478923510362_2_alg».proof.KernelIdeal
import proofs.«149400_j3478923510362_2_alg».proof.Proof.Gen.KernelIdeal

noncomputable section

namespace Cert.Edges

open Cert.KernelIdeal Cert.KernelIdeal.Facts₀ Idealize.ShloMosaic

variable {F : FTy → Type} [FloatOps F]

/-- The edges' source nodes: row 0 of the edge list. -/
def src (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The edges' destination nodes: row 1 of the edge list. -/
def dst (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- A node number read cyclically: below zero, the number of nodes is added. -/
def wrap (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- One over the square root of (sum of incoming edge weights + 1), per node. -/
def dinv (ei : (⟨S2x1600000, .i32⟩ : BufTy).Contents (Elt F)) (ew : (⟨S1600000, .f32⟩ : BufTy).Contents (Elt F)) :
    (⟨S100000, .f32⟩ : BufTy).Contents (Elt F) :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 (dst ei)) ew)
    (broadcastInDim S100000 ![] bcast_S_S100000 (constant S_ .f32 0x3F800000#32)))

/-- Each edge's weight scaled at both ends. -/
def nrm (ei : (⟨S2x1600000, .i32⟩ : BufTy).Contents (Elt F)) (ew : (⟨S1600000, .f32⟩ : BufTy).Contents (Elt F)) :
    (⟨S1600000, .f32⟩ : BufTy).Contents (Elt F) :=
  mulf (mulf (Host.gather gather_S100000_S1600000x1_S1600000_n_0_n_n_0_1_1 (dinv ei ew)
        (broadcastInDim S1600000x1 ![0] bcast_S1600000_S1600000x1_0 (wrap (src ei)))) ew)
    (Host.gather gather_S100000_S1600000x1_S1600000_n_0_n_n_0_1_1 (dinv ei ew)
      (broadcastInDim S1600000x1 ![0] bcast_S1600000_S1600000x1_0 (wrap (dst ei))))

/-- The self-loop weight of each node. -/
def sq (ei : (⟨S2x1600000, .i32⟩ : BufTy).Contents (Elt F)) (ew : (⟨S1600000, .f32⟩ : BufTy).Contents (Elt F)) :
    (⟨S100000, .f32⟩ : BufTy).Contents (Elt F) :=
  mulf (dinv ei ew) (dinv ei ew)

/-- The messages along the edges summed at their destinations, from the three per-edge arrays: the source node's
    row of `hw` for each edge, scaled by the edge's coefficient, scatter-added onto the destination nodes. -/
def aggOf (s d : (⟨S1600000, .i32⟩ : BufTy).Contents (Elt F)) (n : (⟨S1600000, .f32⟩ : BufTy).Contents (Elt F))
    (hw : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (mulf (Host.gather gather_S100000x128_S1600000x1_S1600000x128_1_0_n_n_0_1_1128 hw
        (broadcastInDim S1600000x1 ![0] bcast_S1600000_S1600000x1_0 (wrap s)))
      (broadcastInDim S1600000x128 ![0, 1] bcast_S1600000x1_S1600000x128_0_1
        (broadcastInDim S1600000x1 ![0] bcast_S1600000_S1600000x1_0 n)))

/-- The same from the edge list and the edge weights. -/
def agg (ei : (⟨S2x1600000, .i32⟩ : BufTy).Contents (Elt F)) (ew : (⟨S1600000, .f32⟩ : BufTy).Contents (Elt F))
    (hw : (⟨S100000x128, .f32⟩ : BufTy).Contents (Elt F)) : (⟨S100000x128, .f32⟩ : BufTy).Contents (Elt F) :=
  aggOf (src ei) (dst ei) (nrm ei ew) hw

end Cert.Edges

end
-- ==== Proof.Stretches.lean ====
/-
  The host operations between the launches, read at the buffers the launches and the result depend on.

  Each stretch is a straight line of host operations; what it leaves in one buffer is that buffer's operation
  applied to what its operands held, and a buffer no operation of the stretch writes keeps what it held. Read
  that way, over ANY starting contents `W`:
  * the first stretch leaves the edges' source and destination nodes, their scaled weights, and the self-loop
    weights kept as one column;
  * the stretch after the first (and after the second) launch leaves the messages of that launch's output
    summed at their destinations;
  * the stretches before the third launch widen the classifier's weights and bias to 128 columns with a
    converted integer zero;
  * the last stretch keeps the first 16 columns of the third launch's output.
-/
import proofs.«149400_j3478923510362_2_alg».proof.Proof.Gen.KernelIdeal.Launch
import proofs.«149400_j3478923510362_2_alg».proof.Proof.Edges
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

/-- Closes `after ops W b = W b` for a literal stretch `ops` none of whose operations writes `b`. -/
macro "kept_through " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable {F : FTy → Type} [FloatOps F]
variable (W : Valuation τ sig (Elt F))

set_option maxHeartbeats 4000000 in
theorem s0_src : StableHlo.after (hostOps0 (F := F)) W (Proc.devRef .tc main_v1)
    = Edges.src (W (Proc.devRef .tc main_arg1)) := by
  after_results_simp
  rfl

set_option maxHeartbeats 4000000 in
theorem s0_dst : StableHlo.after (hostOps0 (F := F)) W (Proc.devRef .tc main_v3)
    = Edges.dst (W (Proc.devRef .tc main_arg1)) := by
  after_results_simp
  rfl

set_option maxHeartbeats 4000000 in
theorem s0_nrm : StableHlo.after (hostOps0 (F := F)) W (Proc.devRef .tc main_v25)
    = Edges.nrm (W (Proc.devRef .tc main_arg1)) (W (Proc.devRef .tc main_arg2)) := by
  after_results_simp
  rfl

set_option maxHeartbeats 4000000 in
/-- The self-loop weights, kept as the one column of an array. -/
theorem s0_sn : StableHlo.after (hostOps0 (F := F)) W (Proc.devRef .tc main_v27)
    = shapeCast S100000x1 (Edges.sq (W (Proc.devRef .tc main_arg1)) (W (Proc.devRef .tc main_arg2)))
        Facts₀.shapeCasts_S100000_S100000x1 := by
  after_results_simp
  rfl

set_option maxHeartbeats 4000000 in
theorem s1_agg : StableHlo.after (hostOps1 (F := F)) W (Proc.devRef .tc main_v41)
    = Edges.aggOf (W (Proc.devRef .tc main_v1)) (W (Proc.devRef .tc main_v3)) (W (Proc.devRef .tc main_v25))
        (W (Proc.devRef .tc main_v28)) := by
  after_results_simp
  rfl

set_option maxHeartbeats 4000000 in
theorem s2_agg : StableHlo.after (hostOps2 (F := F)) W (Proc.devRef .tc main_v55)
    = Edges.aggOf (W (Proc.devRef .tc main_v1)) (W (Proc.devRef .tc main_v3)) (W (Proc.devRef .tc main_v25))
        (W (Proc.devRef .tc main_v42)) := by
  after_results_simp
  rfl

set_option maxHeartbeats 4000000 in
theorem s2_zero : StableHlo.after (hostOps2 (F := F)) W (Proc.devRef .tc main_c_10) = constantI S_ 32 0#32 := by
  after_results_simp

/-- The classifier's weights widened from 16 to 128 columns. -/
theorem s21_pad : StableHlo.after (hostOps2_1 (F := F)) W (Proc.devRef .tc main_v56)
    = pad S128x128 ![0, 0] ![0, 112] ![0, 0] (W (Proc.devRef .tc main_arg9)) (sitofp .f32 (W (Proc.devRef .tc main_c_10)))
        Facts₀.pads_S128x16_S128x128_000_01120 Facts₀.h_S_ := by
  after_results
  rfl

theorem s22_zero : StableHlo.after (hostOps2_2 (F := F)) W (Proc.devRef .tc main_c_11) = constantI S_ 32 0#32 := by
  after_results

/-- The classifier's bias widened from 16 to 128 entries. -/
theorem s23_pad : StableHlo.after (hostOps2_3 (F := F)) W (Proc.devRef .tc main_v57)
    = pad S128 ![0] ![112] ![0] (W (Proc.devRef .tc main_arg10)) (sitofp .f32 (W (Proc.devRef .tc main_c_11)))
        Facts₀.pads_S16_S128_01120 Facts₀.h_S_ := by
  after_results
  rfl

/-- The result: the first 16 columns of the third launch's output. -/
theorem s3_out : StableHlo.after (hostOps3 (F := F)) W (Proc.devRef .tc main_v59)
    = extractStridedSlice S100000x16 ![0, 0] (W (Proc.devRef .tc main_v58)) Facts₀.slices_S100000x128_S100000x16_0_0 := by
  after_results

end Cert.KernelIdeal.Stretch

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«149400_j3478923510362_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.StageA.lean ====
/-
  The first launch: ten grid points, point t handling rows 10000·t … 10000·t + 9999 of the node features.

  At a point the body loads its block of rows `x`, the whole input-layer weights and bias and the whole first
  convolution weights, and stores `max (x · wf + bf) 0 · w1` — the matrix unit's two products into zero
  accumulators, the bias row repeated down the rows, the maximum with a zero splat. Read at (p, q) that is the
  first stage of the network on the block. Every layer acts row by row, so the block a point writes back is its
  block of the first stage of the WHOLE feature array; the ten blocks tile the output; so after the launch the
  output array is the first stage of the arrays the launch found.
-/
import proofs.«149400_j3478923510362_2_alg».proof.Proof.Gen.KernelIdeal.Frame
import proofs.«149400_j3478923510362_2_alg».proof.Proof.Net
import proofs.«149400_j3478923510362_2_alg».proof.Proof.LibRowsCols
import proofs.«149400_j3478923510362_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StageA

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.Gcn

theorem hz2 : (![0, 0] : Fin 2 → Nat) = fun _ => 0 := funext fun a => by fin_cases a <;> rfl
theorem hz1 : (![0] : Fin 1 → Nat) = fun _ => 0 := funext fun a => by fin_cases a; rfl

/-- The body's matrix product contracts the one shared axis: left index (row, k), right index (k, column). -/
theorem dot_rc : RowsCols (R := 10000) (K := 128) (N := 128) dot_S10000x128_S128x128_S10000x128_1_0_0_1_n_n :=
  ⟨rfl, rfl, fun _ _ => rfl, fun _ _ => rfl, fun _ _ => rfl, fun _ _ => rfl⟩

/-- What the body stores, at (p, q): the first stage on the block it loaded. -/
theorem pay_apply (x0 : Vec Ideal S10000x128 .f32) (x1 : Vec Ideal S128x128 .f32) (x2 : Vec Ideal S128 .f32)
    (x3 : Vec Ideal S128x128 .f32) (p : Fin 10000) (q : Fin 128) :
    k0_pay1 x0 x1 x2 x3 (ix2 p q) = stageA (M := 10000) (K := 128) x0 x1 x2 x3 (ix2 p q) := by
  unfold k0_pay1
  refine (matmul_zero_apply dot_rc (some .fp32) _ x3 (ix2 p q)).trans ?_
  refine rowsTimes_of_rows _ x3 _ x3 (ix2 p q) (ix2 p q) (fun k => ?_) (fun _ => rfl)
  unfold Gcn.hidden Dense.relu
  refine (maximumf_apply _ _ _).trans ?_
  refine congrArg₂ max ?_ rfl
  refine (addf_apply _ _ _).trans ?_
  exact congrArg₂ (· + ·) (matmul_zero_apply dot_rc (some .fp32) x0 x1 (ix2 p k))
    (ColumnLayout.row_broadcast_apply x2 _ _ p k)

/-- The same with the block's row p identified as row r of a taller array. -/
theorem pay_rows (x0 : Vec Ideal S10000x128 .f32) (x1 : Vec Ideal S128x128 .f32) (x2 : Vec Ideal S128 .f32)
    (x3 : Vec Ideal S128x128 .f32) (X : Mat 100000 128) (X1 : Mat 128 128) (X2 : Row 128) (X3 : Mat 128 128)
    (y : S10000x128.Idx) (i : S100000x128.Idx)
    (hx : ∀ k : Fin 128, x0 (ix2 (y 0 : Fin 10000) k) = X (ix2 (i 0 : Fin 100000) k)) (h1 : (y 1 : Fin 128) = (i 1 : Fin 128))
    (e1 : x1 = X1) (e2 : x2 = X2) (e3 : x3 = X3) :
    k0_pay1 x0 x1 x2 x3 y = stageA (M := 100000) (K := 128) X X1 X2 X3 i := by
  subst e1 e2 e3
  obtain ⟨p, q, rfl⟩ : ∃ (p : Fin 10000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q = q' := h1
  exact (pay_apply x0 x1 x2 x3 p q).trans (stageA_of_rows X x0 x1 x2 x3 p r hx q)

variable (V : (c : Dev nD) → (b : Ref sig .tc) → Buf (Elt Ideal) ((c : Thread nD τ).loc b))

/-- The buffer the body leaves is its one store's payload. -/
theorem out_eq (x0 : Vec Ideal S10000x128 .f32) (x1 : Vec Ideal S128x128 .f32) (x2 : Vec Ideal S128 .f32)
    (x3 : Vec Ideal S128x128 .f32) : out0_4 x0 x1 x2 x3 = k0_pay1 x0 x1 x2 x3 := by
  unfold out0_4
  rw [View.canon_unit_zero hz2]
  simp only [View.ld_unit_zero (S := S10000x128) hz2, View.ld_unit_zero (S := S128x128) hz2, View.ld_unit_zero (S := S128) hz1]

/-- The printed index maps over the ten points: the row blocks move with the point, everything else stays at 0. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (1 : Fin 2) = 0 ∧ win0_4.index t (0 : Fin 2) ≤ 9 :=
  (by decide +kernel : ∀ t : Fin grid0.N, _)

theorem idx_onto : ∀ q0 : Fin 10, ∃ t : Fin cfg0.N, win0_4.index t = ![q0.val, 0] :=
  (by decide +kernel : ∀ q0 : Fin 10, ∃ t : Fin grid0.N, win0_4.index t = ![q0.val, 0])

/-- The first stage of the whole arrays the launch finds. -/
def G (c : Dev nD) : S100000x128.Idx → Elt Ideal .f32 :=
  stageA (M := 100000) (K := 128) (V c main_arg0) (V c main_arg3) (V c main_arg4) (V c main_arg5)

/-- What point t writes back is block t of `G`. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4, out_eq]
  obtain ⟨e0, e1, e2, e3, e4, e5, e6, e7, e8⟩ := idx_facts t
  funext y
  show k0_pay1 (fun z => V c main_arg0 (((cfg0.win 0).blk t).view.emb z)) (fun z => V c main_arg3 (((cfg0.win 1).blk t).view.emb z))
      (fun z => V c main_arg4 (((cfg0.win 2).blk t).view.emb z)) (fun z => V c main_arg5 (((cfg0.win 3).blk t).view.emb z)) y
    = G V c (((cfg0.win 4).blk t).view.emb y)
  unfold G
  refine pay_rows _ _ _ _ (V c main_arg0) (V c main_arg3) (V c main_arg4) (V c main_arg5) y _
    (fun k => congrArg (V c main_arg0) ?_) ?_
    (funext fun z => congrArg (V c main_arg3) ?_) (funext fun z => congrArg (V c main_arg4) ?_)
    (funext fun z => congrArg (V c main_arg5) ?_)
  · funext a; apply Fin.ext
    match a with
    | ⟨0, _⟩ => show win0_0.index t (0 : Fin 2) * 10000 + 1 * (y 0).val = win0_4.index t (0 : Fin 2) * 10000 + 1 * (y 0).val; omega
    | ⟨1, _⟩ => show win0_0.index t (1 : Fin 2) * 128 + 1 * k.val = k.val; omega
  · apply Fin.ext
    show (y 1).val = win0_4.index t (1 : Fin 2) * 128 + 1 * (y 1).val; omega
  · funext a; apply Fin.ext
    match a with
    | ⟨0, _⟩ => show win0_1.index t (0 : Fin 2) * 128 + 1 * (z 0).val = (z 0).val; omega
    | ⟨1, _⟩ => show win0_1.index t (1 : Fin 2) * 128 + 1 * (z 1).val = (z 1).val; omega
  · funext a; apply Fin.ext
    match a with
    | ⟨0, _⟩ => show win0_2.index t (0 : Fin 1) * 128 + 1 * (z 0).val = (z 0).val; omega
  · funext a; apply Fin.ext
    match a with
    | ⟨0, _⟩ => show win0_3.index t (0 : Fin 2) * 128 + 1 * (z 0).val = (z 0).val; omega
    | ⟨1, _⟩ => show win0_3.index t (1 : Fin 2) * 128 + 1 * (z 1).val = (z 1).val; omega

theorem mem_blk (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v28).slice (win0_4.rect t)).set ↔ _
  rw [View.set_slice_whole, Rect.mem_set_unit]
  exact Iff.rfl

/-- Row r lies in the block of point r / 10000. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-- After the launch the output array is the first stage of the arrays the launch found. -/
theorem final (c : Dev nD) : (dat0 V c).arrAt 4 cfg0.N = G V c :=
  (dat0 V c).arrAt_eq_of_cover 4 (G V c) (fun t _ => flushed_eq V c t) (cover)

end Cert.KernelIdeal.StageA

end
-- ==== Proof.StageB.lean ====
/-
  The second launch: ten grid points, point t handling rows 10000·t … 10000·t + 9999.

  At a point the body loads its blocks of the aggregated messages `agg`, of the first stage's output `hw` and of
  the one-column array of self-loop weights, the whole bias and the whole next weights, and stores
  `max (agg + hw · column + bias) 0 · w`: the column repeated along the rows, the bias row repeated down them, the
  maximum with a zero splat, the matrix unit's product into a zero accumulator. Read at (p, q) that is the second
  stage of the network on the block; the layer acts row by row, the ten blocks tile the output, so after the launch
  the output array is the second stage of the arrays the launch found.
-/
import proofs.«149400_j3478923510362_2_alg».proof.Proof.Gen.KernelIdeal.Frame
import proofs.«149400_j3478923510362_2_alg».proof.Proof.Net
import proofs.«149400_j3478923510362_2_alg».proof.Proof.StageA
import proofs.«149400_j3478923510362_2_alg».proof.Proof.LibRowsCols
import proofs.«149400_j3478923510362_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StageB

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.Gcn

open Cert.KernelIdeal.StageA (hz2 hz1 dot_rc)

/-- What the body stores, at row p of the block, when that row is row r of taller arrays. -/
theorem pay_rows (x0 x1 : Vec Ideal S10000x128 .f32) (x2 : Vec Ideal S10000x1 .f32) (x3 : Vec Ideal S128 .f32)
    (x4 : Vec Ideal S128x128 .f32) (A H : Mat 100000 128) (SQ : Row 100000) (B : Row 128) (Wt : Mat 128 128)
    (y : S10000x128.Idx) (i : S100000x128.Idx)
    (ha : ∀ k : Fin 128, x0 (ix2 (y 0 : Fin 10000) k) = A (ix2 (i 0 : Fin 100000) k))
    (hh : ∀ k : Fin 128, x1 (ix2 (y 0 : Fin 10000) k) = H (ix2 (i 0 : Fin 100000) k))
    (hs : x2 (ix2 (y 0 : Fin 10000) (0 : Fin 1)) = SQ (ix1 (i 0 : Fin 100000)))
    (h1 : (y 1 : Fin 128) = (i 1 : Fin 128)) (e3 : x3 = B) (e4 : x4 = Wt) :
    k1_pay1 x0 x1 x2 x3 x4 y = stageB (M := 100000) (K := 128) A H SQ B Wt i := by
  subst e3 e4
  obtain ⟨p, q, rfl⟩ : ∃ (p : Fin 10000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q = q' := h1
  unfold k1_pay1
  refine (matmul_zero_apply dot_rc (some .fp32) _ x4 (ix2 p q)).trans ?_
  unfold stageB
  refine rowsTimes_of_rows _ x4 _ x4 (ix2 p q) (ix2 r q) (fun k => ?_) (fun _ => rfl)
  refine (maximumf_apply _ _ _).trans ?_
  refine Eq.trans ?_ (combine_of_rows A H SQ x0 x1 (x2 (ix2 p (0 : Fin 1))) x3 p r ha hh hs k)
  refine congrArg₂ max ?_ rfl
  refine (addf_apply _ _ _).trans (congrArg₂ (· + ·) ?_ (ColumnLayout.row_broadcast_apply x3 _ _ p k))
  refine (addf_apply _ _ _).trans (congrArg₂ (· + ·) ?_ ?_)
  · exact congrFun (shapeCast_self x0 _) _
  · refine (mulf_apply _ _ _).trans (congrArg₂ (· * ·) (congrFun (shapeCast_self x1 _) _) ?_)
    rw [shapeCast_self]
    exact ColumnLayout.broadcastTo_a1_ab_apply x2 _ p k

variable (V : (c : Dev nD) → (b : Ref sig .tc) → Buf (Elt Ideal) ((c : Thread nD τ).loc b))

/-- The buffer the body leaves is its one store's payload. -/
theorem out_eq (x0 x1 : Vec Ideal S10000x128 .f32) (x2 : Vec Ideal S10000x1 .f32) (x3 : Vec Ideal S128 .f32)
    (x4 : Vec Ideal S128x128 .f32) : out1_5 x0 x1 x2 x3 x4 = k1_pay1 x0 x1 x2 x3 x4 := by
  unfold out1_5
  rw [View.canon_unit_zero hz2]
  simp only [View.ld_unit_zero (S := S10000x128) hz2, View.ld_unit_zero (S := S10000x1) hz2,
    View.ld_unit_zero (S := S128x128) hz2, View.ld_unit_zero (S := S128) hz1]

/-- The printed index maps over the ten points: the row blocks move with the point, everything else stays at 0. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 1) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

theorem idx_onto : ∀ q0 : Fin 10, ∃ t : Fin cfg1.N, win1_5.index t = ![q0.val, 0] :=
  (by decide +kernel : ∀ q0 : Fin 10, ∃ t : Fin grid1.N, win1_5.index t = ![q0.val, 0])

/-- The second stage of the whole arrays the launch finds. -/
def G (c : Dev nD) : S100000x128.Idx → Elt Ideal .f32 :=
  stageB (M := 100000) (K := 128) (V c main_v41) (V c main_v28) (colOf (M := 100000) (V c main_v27)) (V c main_arg6) (V c main_arg7)

/-- What point t writes back is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5, out_eq]
  obtain ⟨e0, e1, e2, e3, e4, e5, e6, e7, e8, e9, e10⟩ := idx_facts t
  funext y
  show k1_pay1 (fun z => V c main_v41 (((cfg1.win 0).blk t).view.emb z)) (fun z => V c main_v28 (((cfg1.win 1).blk t).view.emb z))
      (fun z => V c main_v27 (((cfg1.win 2).blk t).view.emb z)) (fun z => V c main_arg6 (((cfg1.win 3).blk t).view.emb z))
      (fun z => V c main_arg7 (((cfg1.win 4).blk t).view.emb z)) y
    = G V c (((cfg1.win 5).blk t).view.emb y)
  unfold G
  refine pay_rows _ _ _ _ _ (V c main_v41) (V c main_v28) (colOf (M := 100000) (V c main_v27)) (V c main_arg6) (V c main_arg7) y _
    (fun k => congrArg (V c main_v41) ?_) (fun k => congrArg (V c main_v28) ?_) (congrArg (V c main_v27) ?_) ?_
    (funext fun z => congrArg (V c main_arg6) ?_) (funext fun z => congrArg (V c main_arg7) ?_)
  · funext a; apply Fin.ext
    match a with
    | ⟨0, _⟩ => show win1_0.index t (0 : Fin 2) * 10000 + 1 * (y 0).val = win1_5.index t (0 : Fin 2) * 10000 + 1 * (y 0).val; omega
    | ⟨1, _⟩ => show win1_0.index t (1 : Fin 2) * 128 + 1 * k.val = k.val; omega
  · funext a; apply Fin.ext
    match a with
    | ⟨0, _⟩ => show win1_1.index t (0 : Fin 2) * 10000 + 1 * (y 0).val = win1_5.index t (0 : Fin 2) * 10000 + 1 * (y 0).val; omega
    | ⟨1, _⟩ => show win1_1.index t (1 : Fin 2) * 128 + 1 * k.val = k.val; omega
  · funext a; apply Fin.ext
    match a with
    | ⟨0, _⟩ => show win1_2.index t (0 : Fin 2) * 10000 + 1 * (y 0).val = win1_5.index t (0 : Fin 2) * 10000 + 1 * (y 0).val; omega
    | ⟨1, _⟩ => show win1_2.index t (1 : Fin 2) * 1 + 1 * 0 = 0; omega
  · apply Fin.ext
    show (y 1).val = win1_5.index t (1 : Fin 2) * 128 + 1 * (y 1).val; omega
  · funext a; apply Fin.ext
    match a with
    | ⟨0, _⟩ => show win1_3.index t (0 : Fin 1) * 128 + 1 * (z 0).val = (z 0).val; omega
  · funext a; apply Fin.ext
    match a with
    | ⟨0, _⟩ => show win1_4.index t (0 : Fin 2) * 128 + 1 * (z 0).val = (z 0).val; omega
    | ⟨1, _⟩ => show win1_4.index t (1 : Fin 2) * 128 + 1 * (z 1).val = (z 1).val; omega

theorem mem_blk (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v42).slice (win1_5.rect t)).set ↔ _
  rw [View.set_slice_whole, Rect.mem_set_unit]
  exact Iff.rfl

/-- Row r lies in the block of point r / 10000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- After the launch the output array is the second stage of the arrays the launch found. -/
theorem final (c : Dev nD) : (dat1 V c).arrAt 5 cfg1.N = G V c :=
  (dat1 V c).arrAt_eq_of_cover 5 (G V c) (fun t _ => flushed_eq V c t) (cover)

end Cert.KernelIdeal.StageB

end
-- ==== Proof.StageC.lean ====
/-
  The third launch: ten grid points, point t handling rows 10000·t … 10000·t + 9999.

  At a point the body loads its blocks of the aggregated messages, of the second stage's output and of the
  one-column array of self-loop weights, the whole bias, and the whole classifier weights and bias (both widened to
  128 columns), and stores `max (agg + hw · column + bias) 0 · wo + bo`. Read at (p, q) that is the classifier stage
  of the network on the block, with the widened weights; the layer acts row by row, the ten blocks tile the
  output, so after the launch the output array is the classifier stage of the arrays the launch found.
-/
import proofs.«149400_j3478923510362_2_alg».proof.Proof.Gen.KernelIdeal.Frame
import proofs.«149400_j3478923510362_2_alg».proof.Proof.Net
import proofs.«149400_j3478923510362_2_alg».proof.Proof.StageA
import proofs.«149400_j3478923510362_2_alg».proof.Proof.LibRowsCols
import proofs.«149400_j3478923510362_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StageC

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.Gcn

open Cert.KernelIdeal.StageA (hz2 hz1 dot_rc)

/-- What the body stores, at row p of the block, when that row is row r of taller arrays. -/
theorem pay_rows (x0 x1 : Vec Ideal S10000x128 .f32) (x2 : Vec Ideal S10000x1 .f32) (x3 : Vec Ideal S128 .f32)
    (x4 : Vec Ideal S128x128 .f32) (x5 : Vec Ideal S128 .f32)
    (A H : Mat 100000 128) (SQ : Row 100000) (B : Row 128) (Wt : Mat 128 128) (Bo : Row 128)
    (y : S10000x128.Idx) (i : S100000x128.Idx)
    (ha : ∀ k : Fin 128, x0 (ix2 (y 0 : Fin 10000) k) = A (ix2 (i 0 : Fin 100000) k))
    (hh : ∀ k : Fin 128, x1 (ix2 (y 0 : Fin 10000) k) = H (ix2 (i 0 : Fin 100000) k))
    (hs : x2 (ix2 (y 0 : Fin 10000) (0 : Fin 1)) = SQ (ix1 (i 0 : Fin 100000)))
    (h1 : (y 1 : Fin 128) = (i 1 : Fin 128)) (e3 : x3 = B) (e4 : x4 = Wt) (e5 : x5 = Bo) :
    k2_pay1 x0 x1 x2 x3 x4 x5 y = stageC (M := 100000) (K := 128) (C := 128) A H SQ B Wt Bo i := by
  subst e3 e4 e5
  obtain ⟨p, q, rfl⟩ : ∃ (p : Fin 10000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q = q' := h1
  unfold k2_pay1
  unfold stageC
  refine (addf_apply _ _ _).trans (congrArg₂ (· + ·) ?_ ?_)
  · refine (matmul_zero_apply dot_rc (some .fp32) _ _ (ix2 p q)).trans ?_
    refine rowsTimes_of_rows _ x4 _ _ (ix2 p q) (ix2 r q) (fun k => ?_) (fun k => congrFun (shapeCast_self x4 _) _)
    refine (maximumf_apply _ _ _).trans ?_
    refine Eq.trans ?_ (combine_of_rows A H SQ x0 x1 (x2 (ix2 p (0 : Fin 1))) x3 p r ha hh hs k)
    refine congrArg₂ max ?_ rfl
    refine (addf_apply _ _ _).trans (congrArg₂ (· + ·) ?_ (ColumnLayout.row_broadcast_apply x3 _ _ p k))
    refine (addf_apply _ _ _).trans (congrArg₂ (· + ·) ?_ ?_)
    · exact congrFun (shapeCast_self x0 _) _
    · refine (mulf_apply _ _ _).trans (congrArg₂ (· * ·) (congrFun (shapeCast_self x1 _) _) ?_)
      rw [shapeCast_self]
      exact ColumnLayout.broadcastTo_a1_ab_apply x2 _ p k
  · exact (ColumnLayout.row_broadcast_apply _ _ _ p q).trans (congrFun (shapeCast_self x5 _) _)

variable (V : (c : Dev nD) → (b : Ref sig .tc) → Buf (Elt Ideal) ((c : Thread nD τ).loc b))

/-- The buffer the body leaves is its one store's payload. -/
theorem out_eq (x0 x1 : Vec Ideal S10000x128 .f32) (x2 : Vec Ideal S10000x1 .f32) (x3 : Vec Ideal S128 .f32)
    (x4 : Vec Ideal S128x128 .f32) (x5 : Vec Ideal S128 .f32) : out2_6 x0 x1 x2 x3 x4 x5 = k2_pay1 x0 x1 x2 x3 x4 x5 := by
  unfold out2_6
  rw [View.canon_unit_zero hz2]
  simp only [View.ld_unit_zero (S := S10000x128) hz2, View.ld_unit_zero (S := S10000x1) hz2,
    View.ld_unit_zero (S := S128x128) hz2, View.ld_unit_zero (S := S128) hz1]

/-- The printed index maps over the ten points: the row blocks move with the point, everything else stays at 0. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (1 : Fin 2) = 0 ∧ win2_6.index t (0 : Fin 2) ≤ 9 :=
  (by decide +kernel : ∀ t : Fin grid2.N, _)

theorem idx_onto : ∀ q0 : Fin 10, ∃ t : Fin cfg2.N, win2_6.index t = ![q0.val, 0] :=
  (by decide +kernel : ∀ q0 : Fin 10, ∃ t : Fin grid2.N, win2_6.index t = ![q0.val, 0])

/-- The classifier stage of the whole arrays the launch finds. -/
def G (c : Dev nD) : S100000x128.Idx → Elt Ideal .f32 :=
  stageC (M := 100000) (K := 128) (C := 128) (V c main_v55) (V c main_v42) (colOf (M := 100000) (V c main_v27)) (V c main_arg8)
    (V c main_v56) (V c main_v57)

/-- What point t writes back is block t of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6, out_eq]
  obtain ⟨e0, e1, e2, e3, e4, e5, e6, e7, e8, e9, e10, e11⟩ := idx_facts t
  funext y
  show k2_pay1 (fun z => V c main_v55 (((cfg2.win 0).blk t).view.emb z)) (fun z => V c main_v42 (((cfg2.win 1).blk t).view.emb z))
      (fun z => V c main_v27 (((cfg2.win 2).blk t).view.emb z)) (fun z => V c main_arg8 (((cfg2.win 3).blk t).view.emb z))
      (fun z => V c main_v56 (((cfg2.win 4).blk t).view.emb z)) (fun z => V c main_v57 (((cfg2.win 5).blk t).view.emb z)) y
    = G V c (((cfg2.win 6).blk t).view.emb y)
  unfold G
  refine pay_rows _ _ _ _ _ _ (V c main_v55) (V c main_v42) (colOf (M := 100000) (V c main_v27)) (V c main_arg8) (V c main_v56) (V c main_v57) y _
    (fun k => congrArg (V c main_v55) ?_) (fun k => congrArg (V c main_v42) ?_) (congrArg (V c main_v27) ?_) ?_
    (funext fun z => congrArg (V c main_arg8) ?_) (funext fun z => congrArg (V c main_v56) ?_)
    (funext fun z => congrArg (V c main_v57) ?_)
  · funext a; apply Fin.ext
    match a with
    | ⟨0, _⟩ => show win2_0.index t (0 : Fin 2) * 10000 + 1 * (y 0).val = win2_6.index t (0 : Fin 2) * 10000 + 1 * (y 0).val; omega
    | ⟨1, _⟩ => show win2_0.index t (1 : Fin 2) * 128 + 1 * k.val = k.val; omega
  · funext a; apply Fin.ext
    match a with
    | ⟨0, _⟩ => show win2_1.index t (0 : Fin 2) * 10000 + 1 * (y 0).val = win2_6.index t (0 : Fin 2) * 10000 + 1 * (y 0).val; omega
    | ⟨1, _⟩ => show win2_1.index t (1 : Fin 2) * 128 + 1 * k.val = k.val; omega
  · funext a; apply Fin.ext
    match a with
    | ⟨0, _⟩ => show win2_2.index t (0 : Fin 2) * 10000 + 1 * (y 0).val = win2_6.index t (0 : Fin 2) * 10000 + 1 * (y 0).val; omega
    | ⟨1, _⟩ => show win2_2.index t (1 : Fin 2) * 1 + 1 * 0 = 0; omega
  · apply Fin.ext
    show (y 1).val = win2_6.index t (1 : Fin 2) * 128 + 1 * (y 1).val; omega
  · funext a; apply Fin.ext
    match a with
    | ⟨0, _⟩ => show win2_3.index t (0 : Fin 1) * 128 + 1 * (z 0).val = (z 0).val; omega
  · funext a; apply Fin.ext
    match a with
    | ⟨0, _⟩ => show win2_4.index t (0 : Fin 2) * 128 + 1 * (z 0).val = (z 0).val; omega
    | ⟨1, _⟩ => show win2_4.index t (1 : Fin 2) * 128 + 1 * (z 1).val = (z 1).val; omega
  · funext a; apply Fin.ext
    match a with
    | ⟨0, _⟩ => show win2_5.index t (0 : Fin 1) * 128 + 1 * (z 0).val = (z 0).val; omega

theorem mem_blk (t : Fin cfg2.N) (i : S100000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v58).slice (win2_6.rect t)).set ↔ _
  rw [View.set_slice_whole, Rect.mem_set_unit]
  exact Iff.rfl

/-- Row r lies in the block of point r / 10000. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := idx_onto ⟨(i 0).val / 10000, by omega⟩
  have q0 : win2_6.index t (0 : Fin 2) = (i 0).val / 10000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 128 ≤ (i 1).val ∧ (i 1).val < win2_6.index t (1 : Fin 2) * 128 + 128; omega

/-- After the launch the output array is the classifier stage of the arrays the launch found. -/
theorem final (c : Dev nD) : (dat2 V c).arrAt 6 cfg2.N = G V c :=
  (dat2 V c).arrAt_eq_of_cover 6 (G V c) (fun t _ => flushed_eq V c t) (cover)

end Cert.KernelIdeal.StageC

end
-- ==== Proof.KernelValue.lean ====
/-
  The idealized kernel's result as the network of its arguments.

  The contents of the core's buffers are followed from the launch memory through the ten segments of @main. Before
  the first launch the edge list and weights give the per-edge coefficients and the self-loop weights; the first
  launch leaves the first stage of the features; the host then sums the messages at their destinations; the second
  launch leaves the second stage; the host sums again and widens the classifier's weights and bias to 128 columns;
  the third launch leaves the classifier stage over the widened weights; and the result keeps its first 16 columns.
  A column below 16 of the widened weights and bias is the column of the given ones, so those 16 columns are the
  classifier stage over the given weights: the network.
-/
import proofs.«149400_j3478923510362_2_alg».proof.Proof.Gen.KernelIdeal.Frame
import proofs.«149400_j3478923510362_2_alg».proof.Proof.Net
import proofs.«149400_j3478923510362_2_alg».proof.Proof.Edges
import proofs.«149400_j3478923510362_2_alg».proof.Proof.Stretches
import proofs.«149400_j3478923510362_2_alg».proof.Proof.StageA
import proofs.«149400_j3478923510362_2_alg».proof.Proof.StageB
import proofs.«149400_j3478923510362_2_alg».proof.Proof.StageC
import proofs.«149400_j3478923510362_2_alg».proof.Proof.LibColumnLayout
import Idealize.ShloMosaic.Lib.Pipeline.Value
import Idealize.ShloMosaic.Lib.ValueIdx
import Idealize.ShloMosaic.Lib.KernelVsHost

set_option maxRecDepth 16384

noncomputable section

namespace Cert.KernelIdeal.KValue

open Cert.KernelIdeal Cert.KernelIdeal.Gen Cert.KernelIdeal.Stretch
open Idealize.ShloMosaic Idealize.ShloMosaic.TcCoe Idealize.SL.Sem Idealize.ShloMosaic.ValueIdx
open Cert.Dense Cert.Gcn

variable (m : (ℓ : Loc nD τ sig) → Buf (Elt Ideal) ℓ) (ρ : Dev nD → PrngReg) (c : Dev nD)

/-! ## The values along the way, as functions of the arguments -/

/-- The self-loop weights. -/
def SQ : (⟨S100000, .f32⟩ : BufTy).Contents (Elt Ideal) := Edges.sq (m ((c : Thread nD τ).loc main_arg1)) (m ((c : Thread nD τ).loc main_arg2))
/-- The same kept as one column. -/
def SN : (⟨S100000x1, .f32⟩ : BufTy).Contents (Elt Ideal) := shapeCast S100000x1 (SQ m c) Facts₀.shapeCasts_S100000_S100000x1
/-- The first stage. -/
def HW1 : (⟨S100000x128, .f32⟩ : BufTy).Contents (Elt Ideal) :=
  stageA (M := 100000) (K := 128) (m ((c : Thread nD τ).loc main_arg0)) (m ((c : Thread nD τ).loc main_arg3)) (m ((c : Thread nD τ).loc main_arg4)) (m ((c : Thread nD τ).loc main_arg5))
/-- Its messages summed at their destinations. -/
def AGG1 : (⟨S100000x128, .f32⟩ : BufTy).Contents (Elt Ideal) := Edges.agg (m ((c : Thread nD τ).loc main_arg1)) (m ((c : Thread nD τ).loc main_arg2)) (HW1 m c)
/-- The second stage. -/
def HW2 : (⟨S100000x128, .f32⟩ : BufTy).Contents (Elt Ideal) :=
  stageB (M := 100000) (K := 128) (AGG1 m c) (HW1 m c) (SQ m c) (m ((c : Thread nD τ).loc main_arg6)) (m ((c : Thread nD τ).loc main_arg7))
/-- Its messages summed at their destinations. -/
def AGG2 : (⟨S100000x128, .f32⟩ : BufTy).Contents (Elt Ideal) := Edges.agg (m ((c : Thread nD τ).loc main_arg1)) (m ((c : Thread nD τ).loc main_arg2)) (HW2 m c)
/-- The classifier's weights widened to 128 columns. -/
def WPAD : (⟨S128x128, .f32⟩ : BufTy).Contents (Elt Ideal) :=
  pad S128x128 ![0, 0] ![0, 112] ![0, 0] (m ((c : Thread nD τ).loc main_arg9)) (sitofp (F := Ideal) .f32 (constantI S_ 32 0#32))
    Facts₀.pads_S128x16_S128x128_000_01120 Facts₀.h_S_
/-- The classifier's bias widened to 128 entries. -/
def BPAD : (⟨S128, .f32⟩ : BufTy).Contents (Elt Ideal) :=
  pad S128 ![0] ![112] ![0] (m ((c : Thread nD τ).loc main_arg10)) (sitofp (F := Ideal) .f32 (constantI S_ 32 0#32)) Facts₀.pads_S16_S128_01120 Facts₀.h_S_
/-- The classifier stage over the widened weights. -/
def OUTP : (⟨S100000x128, .f32⟩ : BufTy).Contents (Elt Ideal) :=
  stageC (M := 100000) (K := 128) (C := 128) (AGG2 m c) (HW2 m c) (SQ m c) (m ((c : Thread nD τ).loc main_arg8)) (WPAD m c) (BPAD m c)

/-- A vector kept as one column and read back as the vector of its rows' entries is the vector. -/
theorem col_eq (sq : (⟨S100000, .f32⟩ : BufTy).Contents (Elt Ideal)) (h : S100000.ShapeCasts S100000x1) :
    colOf (M := 100000) (shapeCast S100000x1 sq h) = sq := by
  funext i
  obtain ⟨r, rfl⟩ : ∃ r : Fin 100000, i = ix1 r := ⟨i 0, eq_ix1 i⟩
  exact ColumnLayout.shapeCast_a_a1_apply sq h r 0

/-! ## Before the first launch -/

theorem w1_arg0 : W1 m ρ c (Proc.devRef .tc main_arg0) = (m ((c : Thread nD τ).loc main_arg0)) :=
  (by kept_through hostOps0 : W1 m ρ c (Proc.devRef .tc main_arg0) = W0 m ρ c (Proc.devRef .tc main_arg0)).trans rfl
theorem w1_arg3 : W1 m ρ c (Proc.devRef .tc main_arg3) = (m ((c : Thread nD τ).loc main_arg3)) :=
  (by kept_through hostOps0 : W1 m ρ c (Proc.devRef .tc main_arg3) = W0 m ρ c (Proc.devRef .tc main_arg3)).trans rfl
theorem w1_arg4 : W1 m ρ c (Proc.devRef .tc main_arg4) = (m ((c : Thread nD τ).loc main_arg4)) :=
  (by kept_through hostOps0 : W1 m ρ c (Proc.devRef .tc main_arg4) = W0 m ρ c (Proc.devRef .tc main_arg4)).trans rfl
theorem w1_arg5 : W1 m ρ c (Proc.devRef .tc main_arg5) = (m ((c : Thread nD τ).loc main_arg5)) :=
  (by kept_through hostOps0 : W1 m ρ c (Proc.devRef .tc main_arg5) = W0 m ρ c (Proc.devRef .tc main_arg5)).trans rfl
theorem w1_arg6 : W1 m ρ c (Proc.devRef .tc main_arg6) = (m ((c : Thread nD τ).loc main_arg6)) :=
  (by kept_through hostOps0 : W1 m ρ c (Proc.devRef .tc main_arg6) = W0 m ρ c (Proc.devRef .tc main_arg6)).trans rfl
theorem w1_arg7 : W1 m ρ c (Proc.devRef .tc main_arg7) = (m ((c : Thread nD τ).loc main_arg7)) :=
  (by kept_through hostOps0 : W1 m ρ c (Proc.devRef .tc main_arg7) = W0 m ρ c (Proc.devRef .tc main_arg7)).trans rfl
theorem w1_arg8 : W1 m ρ c (Proc.devRef .tc main_arg8) = (m ((c : Thread nD τ).loc main_arg8)) :=
  (by kept_through hostOps0 : W1 m ρ c (Proc.devRef .tc main_arg8) = W0 m ρ c (Proc.devRef .tc main_arg8)).trans rfl
theorem w1_arg9 : W1 m ρ c (Proc.devRef .tc main_arg9) = (m ((c : Thread nD τ).loc main_arg9)) :=
  (by kept_through hostOps0 : W1 m ρ c (Proc.devRef .tc main_arg9) = W0 m ρ c (Proc.devRef .tc main_arg9)).trans rfl
theorem w1_arg10 : W1 m ρ c (Proc.devRef .tc main_arg10) = (m ((c : Thread nD τ).loc main_arg10)) :=
  (by kept_through hostOps0 : W1 m ρ c (Proc.devRef .tc main_arg10) = W0 m ρ c (Proc.devRef .tc main_arg10)).trans rfl
theorem w1_src : W1 m ρ c (Proc.devRef .tc main_v1) = Edges.src (m ((c : Thread nD τ).loc main_arg1)) := s0_src (W0 m ρ c)
theorem w1_dst : W1 m ρ c (Proc.devRef .tc main_v3) = Edges.dst (m ((c : Thread nD τ).loc main_arg1)) := s0_dst (W0 m ρ c)
theorem w1_nrm : W1 m ρ c (Proc.devRef .tc main_v25) = Edges.nrm (m ((c : Thread nD τ).loc main_arg1)) (m ((c : Thread nD τ).loc main_arg2)) := s0_nrm (W0 m ρ c)
theorem w1_sn : W1 m ρ c (Proc.devRef .tc main_v27) = SN m c := s0_sn (W0 m ρ c)

/-! ## After the first launch -/

theorem w2_hw1 : W2 m ρ c (Proc.devRef .tc main_v28) = HW1 m c := by
  refine (W2_arr m ρ c 4).trans ((StageA.final (V1 m ρ) c).trans ?_)
  show stageA (M := 100000) (K := 128) (W1 m ρ c (Proc.devRef .tc main_arg0)) (W1 m ρ c (Proc.devRef .tc main_arg3))
    (W1 m ρ c (Proc.devRef .tc main_arg4)) (W1 m ρ c (Proc.devRef .tc main_arg5)) = _
  rw [w1_arg0, w1_arg3, w1_arg4, w1_arg5]
  rfl
theorem w2_src : W2 m ρ c (Proc.devRef .tc main_v1) = Edges.src (m ((c : Thread nD τ).loc main_arg1)) := (W2_of_ne m ρ c main_v1 (by decide)).trans (w1_src m ρ c)
theorem w2_dst : W2 m ρ c (Proc.devRef .tc main_v3) = Edges.dst (m ((c : Thread nD τ).loc main_arg1)) := (W2_of_ne m ρ c main_v3 (by decide)).trans (w1_dst m ρ c)
theorem w2_nrm : W2 m ρ c (Proc.devRef .tc main_v25) = Edges.nrm (m ((c : Thread nD τ).loc main_arg1)) (m ((c : Thread nD τ).loc main_arg2)) := (W2_of_ne m ρ c main_v25 (by decide)).trans (w1_nrm m ρ c)
theorem w2_sn : W2 m ρ c (Proc.devRef .tc main_v27) = SN m c := (W2_of_ne m ρ c main_v27 (by decide)).trans (w1_sn m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)

/-! ## Before the second launch -/

theorem w3_agg1 : W3 m ρ c (Proc.devRef .tc main_v41) = AGG1 m c := by
  refine (s1_agg (W2 m ρ c)).trans ?_
  rw [w2_src, w2_dst, w2_nrm, w2_hw1]
  rfl
theorem w3_hw1 : W3 m ρ c (Proc.devRef .tc main_v28) = HW1 m c :=
  (by kept_through hostOps1 : W3 m ρ c (Proc.devRef .tc main_v28) = W2 m ρ c (Proc.devRef .tc main_v28)).trans (w2_hw1 m ρ c)
theorem w3_src : W3 m ρ c (Proc.devRef .tc main_v1) = Edges.src (m ((c : Thread nD τ).loc main_arg1)) :=
  (by kept_through hostOps1 : W3 m ρ c (Proc.devRef .tc main_v1) = W2 m ρ c (Proc.devRef .tc main_v1)).trans (w2_src m ρ c)
theorem w3_dst : W3 m ρ c (Proc.devRef .tc main_v3) = Edges.dst (m ((c : Thread nD τ).loc main_arg1)) :=
  (by kept_through hostOps1 : W3 m ρ c (Proc.devRef .tc main_v3) = W2 m ρ c (Proc.devRef .tc main_v3)).trans (w2_dst m ρ c)
theorem w3_nrm : W3 m ρ c (Proc.devRef .tc main_v25) = Edges.nrm (m ((c : Thread nD τ).loc main_arg1)) (m ((c : Thread nD τ).loc main_arg2)) :=
  (by kept_through hostOps1 : W3 m ρ c (Proc.devRef .tc main_v25) = W2 m ρ c (Proc.devRef .tc main_v25)).trans (w2_nrm m ρ c)
theorem w3_sn : W3 m ρ c (Proc.devRef .tc main_v27) = SN m c :=
  (by kept_through hostOps1 : W3 m ρ c (Proc.devRef .tc main_v27) = W2 m ρ c (Proc.devRef .tc main_v27)).trans (w2_sn m ρ c)
theorem w3_arg6 : W3 m ρ c (Proc.devRef .tc main_arg6) = (m ((c : Thread nD τ).loc main_arg6)) :=
  (by kept_through hostOps1 : W3 m ρ c (Proc.devRef .tc main_arg6) = W2 m ρ c (Proc.devRef .tc main_arg6)).trans (w2_arg6 m ρ c)
theorem w3_arg7 : W3 m ρ c (Proc.devRef .tc main_arg7) = (m ((c : Thread nD τ).loc main_arg7)) :=
  (by kept_through hostOps1 : W3 m ρ c (Proc.devRef .tc main_arg7) = W2 m ρ c (Proc.devRef .tc main_arg7)).trans (w2_arg7 m ρ c)
theorem w3_arg8 : W3 m ρ c (Proc.devRef .tc main_arg8) = (m ((c : Thread nD τ).loc main_arg8)) :=
  (by kept_through hostOps1 : W3 m ρ c (Proc.devRef .tc main_arg8) = W2 m ρ c (Proc.devRef .tc main_arg8)).trans (w2_arg8 m ρ c)
theorem w3_arg9 : W3 m ρ c (Proc.devRef .tc main_arg9) = (m ((c : Thread nD τ).loc main_arg9)) :=
  (by kept_through hostOps1 : W3 m ρ c (Proc.devRef .tc main_arg9) = W2 m ρ c (Proc.devRef .tc main_arg9)).trans (w2_arg9 m ρ c)
theorem w3_arg10 : W3 m ρ c (Proc.devRef .tc main_arg10) = (m ((c : Thread nD τ).loc main_arg10)) :=
  (by kept_through hostOps1 : W3 m ρ c (Proc.devRef .tc main_arg10) = W2 m ρ c (Proc.devRef .tc main_arg10)).trans (w2_arg10 m ρ c)

/-! ## After the second launch -/

theorem w4_hw2 : W4 m ρ c (Proc.devRef .tc main_v42) = HW2 m c := by
  refine (W4_arr m ρ c 5).trans ((StageB.final (V3 m ρ) c).trans ?_)
  show stageB (M := 100000) (K := 128) (W3 m ρ c (Proc.devRef .tc main_v41)) (W3 m ρ c (Proc.devRef .tc main_v28))
    (colOf (M := 100000) (W3 m ρ c (Proc.devRef .tc main_v27))) (W3 m ρ c (Proc.devRef .tc main_arg6))
    (W3 m ρ c (Proc.devRef .tc main_arg7)) = _
  rw [w3_agg1, w3_hw1, w3_sn, w3_arg6, w3_arg7]
  unfold SN
  rw [col_eq]
  rfl
theorem w4_src : W4 m ρ c (Proc.devRef .tc main_v1) = Edges.src (m ((c : Thread nD τ).loc main_arg1)) := (W4_of_ne m ρ c main_v1 (by decide)).trans (w3_src m ρ c)
theorem w4_dst : W4 m ρ c (Proc.devRef .tc main_v3) = Edges.dst (m ((c : Thread nD τ).loc main_arg1)) := (W4_of_ne m ρ c main_v3 (by decide)).trans (w3_dst m ρ c)
theorem w4_nrm : W4 m ρ c (Proc.devRef .tc main_v25) = Edges.nrm (m ((c : Thread nD τ).loc main_arg1)) (m ((c : Thread nD τ).loc main_arg2)) := (W4_of_ne m ρ c main_v25 (by decide)).trans (w3_nrm m ρ c)
theorem w4_sn : W4 m ρ c (Proc.devRef .tc main_v27) = SN m c :=
  ((W4_arr m ρ c 2).trans (((dat1 (V3 m ρ) c).arrAt_in 2 rfl _).trans (A_eq1 (V3 m ρ) c 2))).trans (w3_sn m ρ c)
theorem w4_arg8 : W4 m ρ c (Proc.devRef .tc main_arg8) = (m ((c : Thread nD τ).loc main_arg8)) := (W4_of_ne m ρ c main_arg8 (by decide)).trans (w3_arg8 m ρ c)
theorem w4_arg9 : W4 m ρ c (Proc.devRef .tc main_arg9) = (m ((c : Thread nD τ).loc main_arg9)) := (W4_of_ne m ρ c main_arg9 (by decide)).trans (w3_arg9 m ρ c)
theorem w4_arg10 : W4 m ρ c (Proc.devRef .tc main_arg10) = (m ((c : Thread nD τ).loc main_arg10)) := (W4_of_ne m ρ c main_arg10 (by decide)).trans (w3_arg10 m ρ c)

/-! ## Before the third launch: four stretches -/

theorem w5_agg2 : W5 m ρ c (Proc.devRef .tc main_v55) = AGG2 m c := by
  refine (s2_agg (W4 m ρ c)).trans ?_
  rw [w4_src, w4_dst, w4_nrm, w4_hw2]
  rfl
theorem w5_zero : W5 m ρ c (Proc.devRef .tc main_c_10) = constantI S_ 32 0#32 := s2_zero (W4 m ρ c)
theorem w5_hw2 : W5 m ρ c (Proc.devRef .tc main_v42) = HW2 m c :=
  (by kept_through hostOps2 : W5 m ρ c (Proc.devRef .tc main_v42) = W4 m ρ c (Proc.devRef .tc main_v42)).trans (w4_hw2 m ρ c)
theorem w5_sn : W5 m ρ c (Proc.devRef .tc main_v27) = SN m c :=
  (by kept_through hostOps2 : W5 m ρ c (Proc.devRef .tc main_v27) = W4 m ρ c (Proc.devRef .tc main_v27)).trans (w4_sn m ρ c)
theorem w5_arg8 : W5 m ρ c (Proc.devRef .tc main_arg8) = (m ((c : Thread nD τ).loc main_arg8)) :=
  (by kept_through hostOps2 : W5 m ρ c (Proc.devRef .tc main_arg8) = W4 m ρ c (Proc.devRef .tc main_arg8)).trans (w4_arg8 m ρ c)
theorem w5_arg9 : W5 m ρ c (Proc.devRef .tc main_arg9) = (m ((c : Thread nD τ).loc main_arg9)) :=
  (by kept_through hostOps2 : W5 m ρ c (Proc.devRef .tc main_arg9) = W4 m ρ c (Proc.devRef .tc main_arg9)).trans (w4_arg9 m ρ c)
theorem w5_arg10 : W5 m ρ c (Proc.devRef .tc main_arg10) = (m ((c : Thread nD τ).loc main_arg10)) :=
  (by kept_through hostOps2 : W5 m ρ c (Proc.devRef .tc main_arg10) = W4 m ρ c (Proc.devRef .tc main_arg10)).trans (w4_arg10 m ρ c)

theorem w6_wpad : W6 m ρ c (Proc.devRef .tc main_v56) = WPAD m c := by
  refine (s21_pad (W5 m ρ c)).trans ?_
  rw [w5_arg9, w5_zero]
  rfl
theorem w6_agg2 : W6 m ρ c (Proc.devRef .tc main_v55) = AGG2 m c :=
  (by kept_through hostOps2_1 : W6 m ρ c (Proc.devRef .tc main_v55) = W5 m ρ c (Proc.devRef .tc main_v55)).trans (w5_agg2 m ρ c)
theorem w6_hw2 : W6 m ρ c (Proc.devRef .tc main_v42) = HW2 m c :=
  (by kept_through hostOps2_1 : W6 m ρ c (Proc.devRef .tc main_v42) = W5 m ρ c (Proc.devRef .tc main_v42)).trans (w5_hw2 m ρ c)
theorem w6_sn : W6 m ρ c (Proc.devRef .tc main_v27) = SN m c :=
  (by kept_through hostOps2_1 : W6 m ρ c (Proc.devRef .tc main_v27) = W5 m ρ c (Proc.devRef .tc main_v27)).trans (w5_sn m ρ c)
theorem w6_arg8 : W6 m ρ c (Proc.devRef .tc main_arg8) = (m ((c : Thread nD τ).loc main_arg8)) :=
  (by kept_through hostOps2_1 : W6 m ρ c (Proc.devRef .tc main_arg8) = W5 m ρ c (Proc.devRef .tc main_arg8)).trans (w5_arg8 m ρ c)
theorem w6_arg10 : W6 m ρ c (Proc.devRef .tc main_arg10) = (m ((c : Thread nD τ).loc main_arg10)) :=
  (by kept_through hostOps2_1 : W6 m ρ c (Proc.devRef .tc main_arg10) = W5 m ρ c (Proc.devRef .tc main_arg10)).trans (w5_arg10 m ρ c)

theorem w7_zero : W7 m ρ c (Proc.devRef .tc main_c_11) = constantI S_ 32 0#32 := s22_zero (W6 m ρ c)
theorem w7_agg2 : W7 m ρ c (Proc.devRef .tc main_v55) = AGG2 m c :=
  (by kept_through hostOps2_2 : W7 m ρ c (Proc.devRef .tc main_v55) = W6 m ρ c (Proc.devRef .tc main_v55)).trans (w6_agg2 m ρ c)
theorem w7_hw2 : W7 m ρ c (Proc.devRef .tc main_v42) = HW2 m c :=
  (by kept_through hostOps2_2 : W7 m ρ c (Proc.devRef .tc main_v42) = W6 m ρ c (Proc.devRef .tc main_v42)).trans (w6_hw2 m ρ c)
theorem w7_sn : W7 m ρ c (Proc.devRef .tc main_v27) = SN m c :=
  (by kept_through hostOps2_2 : W7 m ρ c (Proc.devRef .tc main_v27) = W6 m ρ c (Proc.devRef .tc main_v27)).trans (w6_sn m ρ c)
theorem w7_arg8 : W7 m ρ c (Proc.devRef .tc main_arg8) = (m ((c : Thread nD τ).loc main_arg8)) :=
  (by kept_through hostOps2_2 : W7 m ρ c (Proc.devRef .tc main_arg8) = W6 m ρ c (Proc.devRef .tc main_arg8)).trans (w6_arg8 m ρ c)
theorem w7_arg10 : W7 m ρ c (Proc.devRef .tc main_arg10) = (m ((c : Thread nD τ).loc main_arg10)) :=
  (by kept_through hostOps2_2 : W7 m ρ c (Proc.devRef .tc main_arg10) = W6 m ρ c (Proc.devRef .tc main_arg10)).trans (w6_arg10 m ρ c)
theorem w7_wpad : W7 m ρ c (Proc.devRef .tc main_v56) = WPAD m c :=
  (by kept_through hostOps2_2 : W7 m ρ c (Proc.devRef .tc main_v56) = W6 m ρ c (Proc.devRef .tc main_v56)).trans (w6_wpad m ρ c)

theorem w8_bpad : W8 m ρ c (Proc.devRef .tc main_v57) = BPAD m c := by
  refine (s23_pad (W7 m ρ c)).trans ?_
  rw [w7_arg10, w7_zero]
  rfl
theorem w8_agg2 : W8 m ρ c (Proc.devRef .tc main_v55) = AGG2 m c :=
  (by kept_through hostOps2_3 : W8 m ρ c (Proc.devRef .tc main_v55) = W7 m ρ c (Proc.devRef .tc main_v55)).trans (w7_agg2 m ρ c)
theorem w8_hw2 : W8 m ρ c (Proc.devRef .tc main_v42) = HW2 m c :=
  (by kept_through hostOps2_3 : W8 m ρ c (Proc.devRef .tc main_v42) = W7 m ρ c (Proc.devRef .tc main_v42)).trans (w7_hw2 m ρ c)
theorem w8_sn : W8 m ρ c (Proc.devRef .tc main_v27) = SN m c :=
  (by kept_through hostOps2_3 : W8 m ρ c (Proc.devRef .tc main_v27) = W7 m ρ c (Proc.devRef .tc main_v27)).trans (w7_sn m ρ c)
theorem w8_arg8 : W8 m ρ c (Proc.devRef .tc main_arg8) = (m ((c : Thread nD τ).loc main_arg8)) :=
  (by kept_through hostOps2_3 : W8 m ρ c (Proc.devRef .tc main_arg8) = W7 m ρ c (Proc.devRef .tc main_arg8)).trans (w7_arg8 m ρ c)
theorem w8_wpad : W8 m ρ c (Proc.devRef .tc main_v56) = WPAD m c :=
  (by kept_through hostOps2_3 : W8 m ρ c (Proc.devRef .tc main_v56) = W7 m ρ c (Proc.devRef .tc main_v56)).trans (w7_wpad m ρ c)

/-! ## After the third launch, and the result -/

theorem w9_out : W9 m ρ c (Proc.devRef .tc main_v58) = OUTP m c := by
  refine (W9_arr m ρ c 6).trans ((StageC.final (V8 m ρ) c).trans ?_)
  show stageC (M := 100000) (K := 128) (C := 128) (W8 m ρ c (Proc.devRef .tc main_v55)) (W8 m ρ c (Proc.devRef .tc main_v42))
    (colOf (M := 100000) (W8 m ρ c (Proc.devRef .tc main_v27))) (W8 m ρ c (Proc.devRef .tc main_arg8))
    (W8 m ρ c (Proc.devRef .tc main_v56)) (W8 m ρ c (Proc.devRef .tc main_v57)) = _
  rw [w8_agg2, w8_hw2, w8_sn, w8_arg8, w8_wpad, w8_bpad]
  unfold SN
  rw [col_eq]
  rfl

/-- The first 16 columns of an array, read at (r, q): the array at (r, q). -/
theorem slice_apply (x : (⟨S100000x128, .f32⟩ : BufTy).Contents (Elt Ideal)) (r : Fin 100000) (q : Fin 16) (q' : Fin 128)
    (hq : q'.val = q.val) :
    extractStridedSlice S100000x16 ![0, 0] x Facts₀.slices_S100000x128_S100000x16_0_0 (ix2 r q) = x (ix2 r q') :=
  extractStridedSlice_apply ![0, 0] x Facts₀.slices_S100000x128_S100000x16_0_0 (ix2 r q) (ix2 r q') (fun a => match a with
    | ⟨0, _⟩ => by show r.val = 0 + r.val; omega
    | ⟨1, _⟩ => by show q'.val = 0 + q.val; omega)

/-- The first 16 columns of the classifier stage over the widened weights are the network. -/
theorem slice_eq : extractStridedSlice S100000x16 ![0, 0] (OUTP m c) Facts₀.slices_S100000x128_S100000x16_0_0
    = net (M := 100000) (K := 128) (C := 16) (Edges.agg (m ((c : Thread nD τ).loc main_arg1)) (m ((c : Thread nD τ).loc main_arg2))) (Edges.sq (m ((c : Thread nD τ).loc main_arg1)) (m ((c : Thread nD τ).loc main_arg2)))
        (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨r, q, rfl⟩ : ∃ (r : Fin 100000) (q : Fin 16), i = ix2 r q := ⟨i 0, i 1, eq_ix2 i⟩
  have hq : q.val < 128 := by have := q.isLt; omega
  refine (slice_apply (OUTP m c) r q ⟨q.val, hq⟩ rfl).trans ?_
  refine stageC_of_cols (AGG2 m c) (HW2 m c) (SQ m c) (m ((c : Thread nD τ).loc main_arg8)) (m ((c : Thread nD τ).loc main_arg9)) (m ((c : Thread nD τ).loc main_arg10)) (WPAD m c) (BPAD m c) r q ⟨q.val, hq⟩
    (fun k => ?_) ?_
  · exact pad_apply_of_inside ![0, 0] ![0, 112] ![0, 0] (m ((c : Thread nD τ).loc main_arg9)) _ Facts₀.pads_S128x16_S128x128_000_01120 Facts₀.h_S_
      (ix2 k (⟨q.val, hq⟩ : Fin 128)) (ix2 k q) (fun a => by
        match a with
        | ⟨0, _⟩ => show k.val = 0 + k.val * (0 + 1); omega
        | ⟨1, _⟩ => show q.val = 0 + q.val * (0 + 1); omega)
  · exact pad_apply_of_inside ![0] ![112] ![0] (m ((c : Thread nD τ).loc main_arg10)) _ Facts₀.pads_S16_S128_01120 Facts₀.h_S_
      (ix1 (⟨q.val, hq⟩ : Fin 128)) (ix1 q) (fun a => by
        match a with
        | ⟨0, _⟩ => show q.val = 0 + q.val * (0 + 1); omega)

/-- What the fold of @main's segments leaves at the result buffer: the network of the arguments. -/
theorem value : W10 m ρ c (Proc.devRef .tc main_v59)
    = net (M := 100000) (K := 128) (C := 16) (Edges.agg (m ((c : Thread nD τ).loc main_arg1)) (m ((c : Thread nD τ).loc main_arg2))) (Edges.sq (m ((c : Thread nD τ).loc main_arg1)) (m ((c : Thread nD τ).loc main_arg2)))
        (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (s3_out (W9 m ρ c)).trans ?_
  rw [w9_out]
  exact slice_eq m c

end Cert.KernelIdeal.KValue

end
-- ==== Proof.RefValue.lean ====
/-
  The reference program read as the network.

  The reference is one straight line of host operations. Its dense stretches are the network's layers: a
  `dot_general` contracting the one shared axis is the matrix product entry by entry, a bias vector given a
  leading unit axis and repeated down the rows adds the bias of the entry's column, the self-loop weights kept
  as a column and repeated along the rows scale a row by its node's weight, and the outlined rectifier is the
  maximum with a zero splat. Between the dense stretches sit the gather, scaling and scatter-add along the edges;
  those are the shared edge functions, met here only by name.
-/
import proofs.«149400_j3478923510362_2_alg».proof.Proof.Gen.ReferenceIdeal.Read
import proofs.«149400_j3478923510362_2_alg».proof.Proof.Net
import proofs.«149400_j3478923510362_2_alg».proof.Proof.Edges
import proofs.«149400_j3478923510362_2_alg».proof.Proof.LibRowsCols
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.ValueIdx Cert.Dense Cert.Gcn

/-- The 128-column product contracts the one shared axis: left index (row, k), right index (k, column). -/
theorem dot_rc : RowsCols (R := 100000) (K := 128) (N := 128) dot_S100000x128_S128x128_S100000x128_1_0_0_1_n_n :=
  ⟨rfl, rfl, fun _ _ => rfl, fun _ _ => rfl, fun _ _ => rfl, fun _ _ => rfl⟩

/-- So does the classifier's 16-column product. -/
theorem dot_rc16 : RowsCols (R := 100000) (K := 128) (N := 16) dot_S100000x128_S128x16_S100000x16_1_0_0_1_n_n :=
  ⟨rfl, rfl, fun _ _ => rfl, fun _ _ => rfl, fun _ _ => rfl, fun _ _ => rfl⟩

/-- The edge chain of the first convolution is the shared aggregation of its weight product. -/
theorem agg1_eq (x0 : (⟨S100000x128, .f32⟩ : BufTy).Contents (Elt Ideal)) (x1 : (⟨S2x1600000, .i32⟩ : BufTy).Contents (Elt Ideal)) (x2 : (⟨S1600000, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v45 (F := Ideal) x0 x1 x2 x3 x4 x5 = Cert.Edges.agg x1 x2 (val_main_v32 (F := Ideal) x0 x3 x4 x5) := rfl

/-- The edge chain of the second convolution likewise. -/
theorem agg2_eq (x0 : (⟨S100000x128, .f32⟩ : BufTy).Contents (Elt Ideal)) (x1 : (⟨S2x1600000, .i32⟩ : BufTy).Contents (Elt Ideal)) (x2 : (⟨S1600000, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal)) :
    val_main_v67 (F := Ideal) x0 x1 x2 x3 x4 x5 x6 x7 = Cert.Edges.agg x1 x2 (val_main_v54 (F := Ideal) x0 x1 x2 x3 x4 x5 x6 x7) := rfl

/-- The self-loop weights are the shared ones. -/
theorem sq_eq (x1 : (⟨S2x1600000, .i32⟩ : BufTy).Contents (Elt Ideal)) (x2 : (⟨S1600000, .f32⟩ : BufTy).Contents (Elt Ideal)) :
    val_main_v31 (F := Ideal) x1 x2 = Cert.Edges.sq x1 x2 := rfl

/-- The input layer. -/
theorem hidden_eq (x0 : (⟨S100000x128, .f32⟩ : BufTy).Contents (Elt Ideal)) (x3 : (⟨S128x128, .f32⟩ : BufTy).Contents (Elt Ideal)) (x4 : (⟨S128, .f32⟩ : BufTy).Contents (Elt Ideal)) :
    val_main_v8 (F := Ideal) x0 x3 x4 = hidden (M := 100000) (K := 128) x0 x3 x4 := by
  funext i
  obtain ⟨r, q, rfl⟩ : ∃ (r : Fin 100000) (q : Fin 128), i = ix2 r q := ⟨i 0, i 1, eq_ix2 i⟩
  rw [val_main_v8_apply, val_main_v7_apply, val_main_v6_apply, val_main_v5_apply, val_main_call0_v0_apply,
    val_main_call0_cst_apply]
  unfold Gcn.hidden Dense.relu
  refine congrArg₂ max (congrArg₂ (· + ·) ?_ (congrArg x4 ?_)) rfl
  · exact dotGeneral_apply dot_rc none x0 x3 (ix2 r q)
  · funext a
    match a with
    | ⟨0, _⟩ => rfl

/-- The first convolution's weight product is the network's first stage. -/
theorem stageA_eq (x0 : (⟨S100000x128, .f32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v32 (F := Ideal) x0 x3 x4 x5 = stageA (M := 100000) (K := 128) x0 x3 x4 x5 := by
  unfold val_main_v32
  rw [hidden_eq]
  exact dotGeneral_eq dot_rc none _ x5

/-- The first combination: aggregated messages + self-loop term + bias, rectified. -/
theorem combine1_eq (x0 : (⟨S100000x128, .f32⟩ : BufTy).Contents (Elt Ideal)) (x1 : (⟨S2x1600000, .i32⟩ : BufTy).Contents (Elt Ideal)) (x2 : (⟨S1600000, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v53 (F := Ideal) x0 x1 x2 x3 x4 x5 x6
      = combine (M := 100000) (K := 128) (Cert.Edges.agg x1 x2 (val_main_v32 (F := Ideal) x0 x3 x4 x5))
          (val_main_v32 (F := Ideal) x0 x3 x4 x5) (Cert.Edges.sq x1 x2) x6 := by
  funext i
  obtain ⟨r, q, rfl⟩ : ∃ (r : Fin 100000) (q : Fin 128), i = ix2 r q := ⟨i 0, i 1, eq_ix2 i⟩
  rw [val_main_v53_apply, val_main_v52_apply, val_main_v49_apply, val_main_v48_apply, val_main_v47_apply,
    val_main_v46_apply, val_main_v51_apply, val_main_v50_apply, val_main_call1_v0_apply, val_main_call1_cst_apply,
    agg1_eq, sq_eq]
  unfold Gcn.combine Dense.relu
  refine congrArg₂ max (congrArg₂ (· + ·) (congrArg₂ (· + ·) rfl (congrArg₂ (· * ·) rfl (congrArg (Cert.Edges.sq x1 x2) ?_)))
    (congrArg x6 ?_)) rfl
  · funext a
    match a with
    | ⟨0, _⟩ => rfl
  · funext a
    match a with
    | ⟨0, _⟩ => rfl

/-- The second convolution's weight product is the network's second stage. -/
theorem stageB_eq (x0 : (⟨S100000x128, .f32⟩ : BufTy).Contents (Elt Ideal)) (x1 : (⟨S2x1600000, .i32⟩ : BufTy).Contents (Elt Ideal)) (x2 : (⟨S1600000, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal)) :
    val_main_v54 (F := Ideal) x0 x1 x2 x3 x4 x5 x6 x7
      = stageB (M := 100000) (K := 128) (Cert.Edges.agg x1 x2 (val_main_v32 (F := Ideal) x0 x3 x4 x5))
          (val_main_v32 (F := Ideal) x0 x3 x4 x5) (Cert.Edges.sq x1 x2) x6 x7 := by
  unfold val_main_v54
  rw [combine1_eq]
  exact dotGeneral_eq dot_rc none _ x7

/-- The second combination. -/
theorem combine2_eq (x0 : (⟨S100000x128, .f32⟩ : BufTy).Contents (Elt Ideal)) (x1 : (⟨S2x1600000, .i32⟩ : BufTy).Contents (Elt Ideal)) (x2 : (⟨S1600000, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal)) (x8 : (⟨S128, .f32⟩ : BufTy).Contents (Elt Ideal)) :
    val_main_v75 (F := Ideal) x0 x1 x2 x3 x4 x5 x6 x7 x8
      = combine (M := 100000) (K := 128) (Cert.Edges.agg x1 x2 (val_main_v54 (F := Ideal) x0 x1 x2 x3 x4 x5 x6 x7))
          (val_main_v54 (F := Ideal) x0 x1 x2 x3 x4 x5 x6 x7) (Cert.Edges.sq x1 x2) x8 := by
  funext i
  obtain ⟨r, q, rfl⟩ : ∃ (r : Fin 100000) (q : Fin 128), i = ix2 r q := ⟨i 0, i 1, eq_ix2 i⟩
  rw [val_main_v75_apply, val_main_v74_apply, val_main_v71_apply, val_main_v70_apply, val_main_v69_apply,
    val_main_v68_apply, val_main_v73_apply, val_main_v72_apply, val_main_call2_v0_apply, val_main_call2_cst_apply,
    agg2_eq, sq_eq]
  unfold Gcn.combine Dense.relu
  refine congrArg₂ max (congrArg₂ (· + ·) (congrArg₂ (· + ·) rfl (congrArg₂ (· * ·) rfl (congrArg (Cert.Edges.sq x1 x2) ?_)))
    (congrArg x8 ?_)) rfl
  · funext a
    match a with
    | ⟨0, _⟩ => rfl
  · funext a
    match a with
    | ⟨0, _⟩ => rfl

/-- The reference's result is the network of its arguments, the edge aggregation and the self-loop weights
    being the shared edge functions of the edge list and the edge weights. -/
theorem result_eq (x0 : (⟨S100000x128, .f32⟩ : BufTy).Contents (Elt Ideal)) (x1 : (⟨S2x1600000, .i32⟩ : BufTy).Contents (Elt Ideal)) (x2 : (⟨S1600000, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x16, .f32⟩ : BufTy).Contents (Elt Ideal)) (x10 : (⟨S16, .f32⟩ : BufTy).Contents (Elt Ideal)) :
    val_main_v79 (F := Ideal) x0 x1 x2 x3 x4 x5 x6 x7 x8 x9 x10
      = net (M := 100000) (K := 128) (C := 16) (Cert.Edges.agg x1 x2) (Cert.Edges.sq x1 x2) x0 x3 x4 x5 x6 x7 x8 x9 x10 := by
  funext i
  obtain ⟨r, q, rfl⟩ : ∃ (r : Fin 100000) (q : Fin 16), i = ix2 r q := ⟨i 0, i 1, eq_ix2 i⟩
  rw [val_main_v79_apply, val_main_v78_apply, val_main_v77_apply]
  unfold Gcn.net Gcn.stageC
  refine congrArg₂ (· + ·) ?_ (congrArg x10 ?_)
  · unfold val_main_v76
    rw [combine2_eq, stageB_eq, stageA_eq]
    exact dotGeneral_apply dot_rc16 none _ x9 (ix2 r q)
  · funext a
    match a with
    | ⟨0, _⟩ => rfl

end Cert.ReferenceIdeal.RefValue

end
-- ==== Proof.lean ====
/-
  A two-layer graph convolution network over 100000 nodes and 1600000 weighted edges, computed two ways.

  The reference is one line of array operations: the input layer `max (x · W_first + b_first) 0`; the symmetric
  normalisation of the edge weights by the inverse square roots of the node degrees (self-loops of weight 1
  included); twice, a weight product, the messages gathered along the edges, scaled and summed at their
  destinations, the self-loop term, the bias and the rectifier; and the classifier `h · W_out + b_out`.

  The kernel keeps the gather, the scaling and the scatter-add as the same array operations and fuses everything
  dense into three launches over blocks of 10000 rows: input layer and first weight product; first combination
  and second weight product; second combination and classifier, with the classifier's weights and bias widened
  from 16 to 128 columns by zeros and the extra columns dropped afterwards.

  On the extended reals the two are one function of the arguments. Every dense layer acts on each row separately,
  so a block of rows put through a layer is that block of the whole array put through it, and the blocks tile the
  arrays; the matrix unit's product into a zero accumulator and the contraction of the array operations are the
  same sum of the same products; a vector kept as a column and repeated along the rows, or given a leading unit
  axis and repeated down them, is read at the row, or at the column; and a column below 16 of the widened
  classifier is the column of the given one. The operations along the edges are spelt alike in both programs and
  are carried as one function. No step needs an entry to be finite, so the precondition is not used.

  The frames of the two printed kernels are the generated ones; the reference's frame is its generated run with
  the result dropped; no operation was rewritten by the idealization, so there is nothing to preserve.
-/
import proofs.«149400_j3478923510362_2_alg».proof.Defs
import proofs.«149400_j3478923510362_2_alg».proof.Proof.Gen.Kernel
import proofs.«149400_j3478923510362_2_alg».proof.Proof.Gen.Kernel.Skeleton
import proofs.«149400_j3478923510362_2_alg».proof.Proof.Gen.Kernel.Launch
import proofs.«149400_j3478923510362_2_alg».proof.Proof.Gen.Kernel.Points
import proofs.«149400_j3478923510362_2_alg».proof.Proof.Gen.Kernel.Frame
import proofs.«149400_j3478923510362_2_alg».proof.Proof.Gen.KernelIdeal
import proofs.«149400_j3478923510362_2_alg».proof.Proof.Gen.KernelIdeal.Skeleton
import proofs.«149400_j3478923510362_2_alg».proof.Proof.Gen.KernelIdeal.Launch
import proofs.«149400_j3478923510362_2_alg».proof.Proof.Gen.KernelIdeal.Points
import proofs.«149400_j3478923510362_2_alg».proof.Proof.Gen.KernelIdeal.Frame
import proofs.«149400_j3478923510362_2_alg».proof.Proof.Gen.ReferenceIdeal
import proofs.«149400_j3478923510362_2_alg».proof.Proof.Gen.ReferenceIdeal.Run
import proofs.«149400_j3478923510362_2_alg».proof.Proof.Gen.ReferenceIdeal.Read
import proofs.«149400_j3478923510362_2_alg».proof.Proof.Gen.Pre_finite_inputs
import proofs.«149400_j3478923510362_2_alg».proof.Proof.KernelRun
import proofs.«149400_j3478923510362_2_alg».proof.Proof.KernelValue
import proofs.«149400_j3478923510362_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the arguments in their result array. -/
theorem algebraic : Cert.algebraic_KernelIdeal_ReferenceIdeal := by
  intro m ρ m' ρ' _ hagree
  refine ⟨fun c => Cert.Gcn.net (M := 100000) (K := 128) (C := 16) (Cert.Edges.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.Edges.sq (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.value m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v79_eq, Cert.ReferenceIdeal.RefValue.result_eq, a0, a1, a2, a3, a4, a5, a6, a7,
      a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
